-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x128 : Shape := ⟨4, ![2, 16, 4096, 128]⟩
abbrev S_ : Shape := ⟨0, ![]⟩

class Facts : Prop where
  bcast_S_S2x16x4096x128 : S_.BroadcastsInDim S2x16x4096x128 (![] : Fin 0 → Fin S2x16x4096x128.rank)
  reducesTo_S2x16x4096x128_S_d0_1_2_3 : S2x16x4096x128.ReducesTo [0, 1, 2, 3] S_
  h_S_ : 0 < S_.numel

variable [Facts]

def fn {F : FTy → Type} [FloatOps F] (main_arg0 : FVec F S2x16x4096x128 .f32) (main_arg1 : FVec F S2x16x4096x128 .f32) (main_arg2 : FVec F S2x16x4096x128 .f32) : IVec S_ 1 :=
  let main_v0 : FVec F S2x16x4096x128 .f32 := Host.absf main_arg0
  let main_cst : FVec F S_ .f32 := constant S_ .f32 0x7F800000#32
  let main_v1 : FVec F S2x16x4096x128 .f32 := broadcastInDim S2x16x4096x128 ![] bcast_S_S2x16x4096x128 main_cst
  let main_v2 : IVec S2x16x4096x128 1 := cmpf .olt main_v0 main_v1
  let main_c : IVec S_ 1 := constantI S_ 1 1#1
  let main_v3 : IVec S_ 1 := (fun x v => Host.reduce IntOp.andi x v reducesTo_S2x16x4096x128_S_d0_1_2_3 h_S_) main_v2 main_c
  let main_v4 : FVec F S2x16x4096x128 .f32 := Host.absf main_arg1
  let main_cst_0 : FVec F S_ .f32 := constant S_ .f32 0x7F800000#32
  let main_v5 : FVec F S2x16x4096x128 .f32 := broadcastInDim S2x16x4096x128 ![] bcast_S_S2x16x4096x128 main_cst_0
  let main_v6 : IVec S2x16x4096x128 1 := cmpf .olt main_v4 main_v5
  let main_c_1 : IVec S_ 1 := constantI S_ 1 1#1
  let main_v7 : IVec S_ 1 := (fun x v => Host.reduce IntOp.andi x v reducesTo_S2x16x4096x128_S_d0_1_2_3 h_S_) main_v6 main_c_1
  let main_v8 : IVec S_ 1 := andi main_v3 main_v7
  let main_v9 : FVec F S2x16x4096x128 .f32 := Host.absf main_arg2
  let main_cst_2 : FVec F S_ .f32 := constant S_ .f32 0x7F800000#32
  let main_v10 : FVec F S2x16x4096x128 .f32 := broadcastInDim S2x16x4096x128 ![] bcast_S_S2x16x4096x128 main_cst_2
  let main_v11 : IVec S2x16x4096x128 1 := cmpf .olt main_v9 main_v10
  let main_c_3 : IVec S_ 1 := constantI S_ 1 1#1
  let main_v12 : IVec S_ 1 := (fun x v => Host.reduce IntOp.andi x v reducesTo_S2x16x4096x128_S_d0_1_2_3 h_S_) main_v11 main_c_3
  let main_v13 : IVec S_ 1 := andi main_v8 main_v12
  main_v13
-- ==== Kernel.lean ====
abbrev S2x16x4096x128 : Shape := ⟨4, ![2, 16, 4096, 128]⟩
abbrev S1x1x4096x128 : Shape := ⟨4, ![1, 1, 4096, 128]⟩
abbrev S4096x128 : Shape := ⟨2, ![4096, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S2x16x4096x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1x4096x128, .f32⟩
  | .local _ .vmem, ⟨7, _⟩ => ⟨S1x1x4096x128, .f32⟩
  | _, _ => ⟨S2x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x4096x128_S1x1x4096x128_0_0_0_0 : ∀ a, (![0, 0, 0, 0] : Fin 4 → Nat) a + S1x1x4096x128.size a ≤ S1x1x4096x128.size a
  h_S1x1x4096x128 : 0 < S1x1x4096x128.numel
  shapeCasts_S1x1x4096x128_S4096x128 : S1x1x4096x128.ShapeCasts S4096x128
  shapeCasts_S4096x128_S1x1x4096x128 : S4096x128.ShapeCasts S1x1x4096x128
  dot_S4096x128_S4096x128_S128x128_0_0_1_1_n_n_wf : DotDims.WF S4096x128 S4096x128 S128x128 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x128.size a ≤ S2x16x4096x128.size a
  hwx0_0 : ∀ i : grid0.Coords, EltTy.bits .f32 = 32 ∨ (Rect.block (s := S2x16x4096x128) S1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x128.size a ≤ S2x16x4096x128.size a
  hwx0_1 : ∀ i : grid0.Coords, EltTy.bits .f32 = 32 ∨ (Rect.block (s := S2x16x4096x128) S1x1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x128.size a ≤ S2x16x4096x128.size a
  hwx0_2 : ∀ i : grid0.Coords, EltTy.bits .f32 = 32 ∨ (Rect.block (s := S2x16x4096x128) S1x1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x128.size a ≤ S2x16x4096x128.size a
  hwx0_3 : ∀ i : grid0.Coords, EltTy.bits .f32 = 32 ∨ (Rect.block (s := S2x16x4096x128) S1x1x4096x128.size (cc0_transform_3 i) (hinb0_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x4096x128 : Shape := ⟨4, ![2, 16, 4096, 128]⟩
abbrev S2x16x128x128 : Shape := ⟨4, ![2, 16, 128, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S2x16x128x128, .f32⟩
  | .hbm, ⟨4, _⟩ => ⟨S2x16x4096x128, .f32⟩
  | .hbm, ⟨5, _⟩ => ⟨S2x16x4096x128, .f32⟩
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S2x16x4096x128_S2x16x4096x128_S2x16x128x128_2_2_3_3_01_01_wf : DotDims.WF S2x16x4096x128 S2x16x4096x128 S2x16x128x128 [2] [2] [3] [3] [0, 1] [0, 1]
  dot_S2x16x4096x128_S2x16x128x128_S2x16x4096x128_3_2_2_3_01_01_wf : DotDims.WF S2x16x4096x128 S2x16x128x128 S2x16x4096x128 [3] [2] [2] [3] [0, 1] [0, 1]

variable [Facts₀]

def dot_S2x16x4096x128_S2x16x4096x128_S2x16x128x128_2_2_3_3_01_01 : DotDims S2x16x4096x128 S2x16x4096x128 S2x16x128x128 where
  lhsContracting := [2]
  rhsContracting := [2]
  lhsNonContracting := [3]
  rhsNonContracting := [3]
  lhsBatch := [0, 1]
  rhsBatch := [0, 1]
  wf := dot_S2x16x4096x128_S2x16x4096x128_S2x16x128x128_2_2_3_3_01_01_wf
def dot_S2x16x4096x128_S2x16x128x128_S2x16x4096x128_3_2_2_3_01_01 : DotDims S2x16x4096x128 S2x16x128x128 S2x16x4096x128 where
  lhsContracting := [3]
  rhsContracting := [2]
  lhsNonContracting := [2]
  rhsNonContracting := [3]
  lhsBatch := [0, 1]
  rhsBatch := [0, 1]
  wf := dot_S2x16x4096x128_S2x16x128x128_S2x16x4096x128_3_2_2_3_01_01_wf

class Facts : Prop extends Facts₀ where

variable [Facts]
-- ==== Proof.Spec.lean ====
/-
  The function both programs compute, stated once over the extended reals.

  The arguments are three arrays `q`, `k`, `v` of shape [2, 16, 4096, 128]: batch `b`, head `h`, position `s`,
  feature `d`. For one head the KEY–VALUE SUMMARY is the 128 × 128 matrix

      kv(b, h, d, e) = ∑ s, k(b, h, s, d) · v(b, h, s, e)            (the sum over all 4096 positions)

  and the result is the value array plus the queries applied to that summary:

      out(b, h, s, e) = v(b, h, s, e) + ∑ d, q(b, h, s, d) · kv(b, h, d, e).

  Both sums are finite sums in the commutative monoid (EReal, +) and the products are EReal's; nothing here asks the entries
  to be finite, because the two programs form the SAME sums of the SAME products — no term is moved across a sum.
-/
import Idealize.ShloMosaic.PureOps.Ideal
import Idealize.ShloMosaic.Lib.ValueIdx

noncomputable section

open scoped BigOperators

namespace Cert.LinearAttention

open Idealize.ShloMosaic Idealize.ShloMosaic.ValueIdx

/-- The shape of each argument and of the result: [batch, head, position, feature]. -/
abbrev Heads : Shape := ⟨4, ![2, 16, 4096, 128]⟩

/-- The key–value summary of head `(b, h)`: entry `(d, e)` is the sum over the positions `s` of `k(b,h,s,d) · v(b,h,s,e)`. -/
def keyValue (k v : Heads.Idx → EReal) (b : Fin 2) (h : Fin 16) (d e : Fin 128) : EReal :=
  ∑ s : Fin 4096, k (ix4 b h s d) * v (ix4 b h s e)

/-- The result at `(b, h, s, e)`: the value there plus the sum over the features `d` of `q(b,h,s,d) · kv(b,h,d,e)`. -/
def attendAt (q k v : Heads.Idx → EReal) (b : Fin 2) (h : Fin 16) (s : Fin 4096) (e : Fin 128) : EReal :=
  v (ix4 b h s e) + ∑ d : Fin 128, q (ix4 b h s d) * keyValue k v b h d e

/-- The whole result array, index by index. -/
def attend (q k v : Heads.Idx → EReal) : Heads.Idx → EReal :=
  fun i => attendAt q k v (i 0) (i 1) (i 2) (i 3)

/-- At an index given by its coordinates the result array is `attendAt` of them. -/
theorem attend_ix4 (q k v : Heads.Idx → EReal) (b : Fin 2) (h : Fin 16) (s : Fin 4096) (e : Fin 128) :
    attend q k v (ix4 b h s e) = attendAt q k v b h s e := rfl

end Cert.LinearAttention

end
-- ==== Proof.RefSide.lean ====
/-
  The reference computes `attend`.

  The reference is three host operations: a batched contraction of `k` with `v` over the position axis (the key–value
  summary), a batched contraction of `q` with that summary over the feature axis, and the sum with `v`. Read at the index
  `(b, h, s, e)`, each contraction is the sum over its one contracted coordinate of the operands' products, and the operand
  indices are the ones `attendAt` names: `(b, h, s, d)` in `q`, `(b, h, d, e)` in the summary, `(b, h, s', d)` in `k` and
  `(b, h, s', e)` in `v`.
-/
import proofs.«113192_j48155173323323_2_alg».proof.Proof.Gen.ReferenceIdeal.Read
import proofs.«113192_j48155173323323_2_alg».proof.Proof.Spec

noncomputable section

open scoped BigOperators

namespace Cert.LinearAttention.Reference

open Idealize.ShloMosaic Idealize.ShloMosaic.ValueIdx Cert.ReferenceIdeal Cert.ReferenceIdeal.Read Cert.LinearAttention

/-- The query read by the second contraction at `(b, h, s, e)`, contracted coordinate `d`: `(b, h, s, d)`. -/
theorem query_index (b : Fin 2) (h : Fin 16) (s : Fin 4096) (e d : Fin 128) :
    lidx_main_v1 (ix4 b h s e) d = ix4 b h s d :=
  funext fun a => Fin.ext (by match a with | ⟨0, _⟩ => rfl | ⟨1, _⟩ => rfl | ⟨2, _⟩ => rfl | ⟨3, _⟩ => rfl)

/-- The summary entry read by the second contraction at `(b, h, s, e)`, contracted coordinate `d`: `(b, h, d, e)`. -/
theorem summary_index (b : Fin 2) (h : Fin 16) (s : Fin 4096) (e d : Fin 128) :
    ridx_main_v1 (ix4 b h s e) d = ix4 b h d e :=
  funext fun a => Fin.ext (by match a with | ⟨0, _⟩ => rfl | ⟨1, _⟩ => rfl | ⟨2, _⟩ => rfl | ⟨3, _⟩ => rfl)

/-- The key read by the first contraction at summary entry `(b, h, d, e)`, contracted position `s`: `(b, h, s, d)`. -/
theorem key_index (b : Fin 2) (h : Fin 16) (d e : Fin 128) (s : Fin 4096) :
    lidx_main_v0 (ix4 b h d e) s = ix4 b h s d :=
  funext fun a => Fin.ext (by match a with | ⟨0, _⟩ => rfl | ⟨1, _⟩ => rfl | ⟨2, _⟩ => rfl | ⟨3, _⟩ => rfl)

/-- The value read by the first contraction at summary entry `(b, h, d, e)`, contracted position `s`: `(b, h, s, e)`. -/
theorem value_index (b : Fin 2) (h : Fin 16) (d e : Fin 128) (s : Fin 4096) :
    ridx_main_v0 (ix4 b h d e) s = ix4 b h s e :=
  funext fun a => Fin.ext (by match a with | ⟨0, _⟩ => rfl | ⟨1, _⟩ => rfl | ⟨2, _⟩ => rfl | ⟨3, _⟩ => rfl)

/-- The reference's last stage, as a function of the three argument arrays, is `attend` of them. -/
theorem stage_eq_attend (q k v : Heads.Idx → EReal) : val_main_v2 (F := Ideal) q k v = attend q k v := by
  funext i
  obtain ⟨b, h, s, e, rfl⟩ : ∃ (b : Fin 2) (h : Fin 16) (s : Fin 4096) (e : Fin 128), i = ix4 b h s e :=
    ⟨i 0, i 1, i 2, i 3, eq_ix4 i⟩
  rw [val_main_v2_apply, val_main_v1_apply, attend_ix4]
  simp only [val_main_v0_apply, query_index, summary_index, key_index, value_index]
  rfl

end Cert.LinearAttention.Reference

end
-- ==== Proof.BodySide.lean ====
/-
  What one grid point writes: the kernel body's stored value, read at an index.

  At a grid point the body sees one head: three loaded blocks of shape [1, 1, 4096, 128] — the head's keys, values and
  queries. It drops the two unit axes, forms the 128 × 128 key–value summary as a product contracted over the 4096 positions
  into a zero accumulator, applies the queries to it as a second product contracted over the 128 features into a zero
  accumulator, adds the values, and puts the unit axes back. Read at entry `(0, 0, s, e)` of the stored block, that is

      vb(0,0,s,e) + ∑ d, qb(0,0,s,d) · ∑ s', kb(0,0,s',d) · vb(0,0,s',e).

  Dropping or adding a leading unit axis does not move an entry (same row-major position); a product into the zero accumulator,
  over the extended reals, is the plain sum over its one contracted coordinate of the operands' products.
-/
import proofs.«113192_j48155173323323_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.LinearAttention.Body

open Idealize.ShloMosaic Idealize.ShloMosaic.ValueIdx Cert.KernelIdeal Cert.KernelIdeal.Gen

/-- The one coordinate of a unit axis. -/
abbrev o : Fin 1 := ⟨0, Nat.one_pos⟩

/-- A [1, 1, 4096, 128] block viewed as [4096, 128]: entry `(s, e)` is the block's entry `(0, 0, s, e)`. -/
theorem squeeze_apply (x : FVec Ideal S1x1x4096x128 .f32) (hc : S1x1x4096x128.ShapeCasts S4096x128)
    (s : Fin 4096) (e : Fin 128) : shapeCast S4096x128 x hc (ix2 s e) = x (ix4 o o s e) :=
  shapeCast_apply x hc (ix2 s e) (ix4 o o s e) (by
    rw [Shape.rowMajor_val_four, Shape.rowMajor_val_two]
    show ((0 * 1 + 0) * 4096 + s.val) * 128 + e.val = s.val * 128 + e.val
    simp only [Nat.zero_mul, Nat.zero_add])

/-- A [4096, 128] value stored as a [1, 1, 4096, 128] block: entry `(0, 0, s, e)` is the value's entry `(s, e)`. -/
theorem unsqueeze_apply (y : FVec Ideal S4096x128 .f32) (hc : S4096x128.ShapeCasts S1x1x4096x128)
    (s : Fin 4096) (e : Fin 128) : shapeCast S1x1x4096x128 y hc (ix4 o o s e) = y (ix2 s e) :=
  shapeCast_apply y hc (ix4 o o s e) (ix2 s e) (by
    rw [Shape.rowMajor_val_four, Shape.rowMajor_val_two]
    show s.val * 128 + e.val = ((0 * 1 + 0) * 4096 + s.val) * 128 + e.val
    simp only [Nat.zero_mul, Nat.zero_add])

/-- THE KEY–VALUE SUMMARY of one head: the product of the keys and the values contracted over the positions, into the zero
    accumulator, at `(d, e)` is the sum over the positions `s` of `keys(s, d) · values(s, e)`. -/
theorem summary_apply (keys values : FVec Ideal S4096x128 .f32) (d e : Fin 128) :
    matmul dot_S4096x128_S4096x128_S128x128_0_0_1_1_n_n none keys values (constant S128x128 .f32 0x00000000#32) (ix2 d e)
      = ∑ s : Fin 4096, keys (ix2 s d) * values (ix2 s e) := by
  show FloatOps.matmul dot_S4096x128_S4096x128_S128x128_0_0_1_1_n_n none keys values (constant S128x128 .f32 0x00000000#32) (ix2 d e) = _
  rw [Ideal.matmul_constant_zero_apply,
    ← Equiv.sum_comp (contrEquiv1 dot_S4096x128_S4096x128_S128x128_0_0_1_1_n_n 4096 rfl rfl).symm]
  refine Finset.sum_congr rfl fun s _ => ?_
  have hs := contrEquiv1_symm_val dot_S4096x128_S4096x128_S128x128_0_0_1_1_n_n 4096 rfl rfl s
  have el : dot_S4096x128_S4096x128_S128x128_0_0_1_1_n_n.lhsIdx (ix2 d e)
      ((contrEquiv1 dot_S4096x128_S4096x128_S128x128_0_0_1_1_n_n 4096 rfl rfl).symm s) = ix2 s d :=
    funext fun a => Fin.ext (by
      match a with
      | ⟨0, _⟩ => exact (dot_S4096x128_S4096x128_S128x128_0_0_1_1_n_n.lhsIdx_val_of_single rfl _ _).trans hs
      | ⟨1, _⟩ =>
        show (dot_S4096x128_S4096x128_S128x128_0_0_1_1_n_n.lhsIdx (ix2 d e) _ 1).val = d.val
        unfold DotDims.lhsIdx
        rw [dif_neg (show ¬(1 : Fin S4096x128.rank) ∈ dot_S4096x128_S4096x128_S128x128_0_0_1_1_n_n.lhsBatch by decide),
          dif_pos (show (1 : Fin S4096x128.rank) ∈ dot_S4096x128_S4096x128_S128x128_0_0_1_1_n_n.lhsNonContracting by decide)]
        rfl)
  have er : dot_S4096x128_S4096x128_S128x128_0_0_1_1_n_n.rhsIdx (ix2 d e)
      ((contrEquiv1 dot_S4096x128_S4096x128_S128x128_0_0_1_1_n_n 4096 rfl rfl).symm s) = ix2 s e :=
    funext fun a => Fin.ext (by
      match a with
      | ⟨0, _⟩ => exact (dot_S4096x128_S4096x128_S128x128_0_0_1_1_n_n.rhsIdx_val_of_single rfl _ _).trans hs
      | ⟨1, _⟩ =>
        show (dot_S4096x128_S4096x128_S128x128_0_0_1_1_n_n.rhsIdx (ix2 d e) _ 1).val = e.val
        unfold DotDims.rhsIdx
        rw [dif_neg (show ¬(1 : Fin S4096x128.rank) ∈ dot_S4096x128_S4096x128_S128x128_0_0_1_1_n_n.rhsBatch by decide),
          dif_pos (show (1 : Fin S4096x128.rank) ∈ dot_S4096x128_S4096x128_S128x128_0_0_1_1_n_n.rhsNonContracting by decide)]
        rfl)
  rw [el, er]

/-- THE QUERIES APPLIED TO A SUMMARY: the product of the queries and a 128 × 128 matrix contracted over the features, into the
    zero accumulator, at `(s, e)` is the sum over the features `d` of `queries(s, d) · summary(d, e)`. -/
theorem applied_apply (queries : FVec Ideal S4096x128 .f32) (summary : FVec Ideal S128x128 .f32) (s : Fin 4096) (e : Fin 128) :
    matmul dot_S4096x128_S128x128_S4096x128_1_0_0_1_n_n none queries summary (constant S4096x128 .f32 0x00000000#32) (ix2 s e)
      = ∑ d : Fin 128, queries (ix2 s d) * summary (ix2 d e) := by
  show FloatOps.matmul dot_S4096x128_S128x128_S4096x128_1_0_0_1_n_n none queries summary (constant S4096x128 .f32 0x00000000#32) (ix2 s e) = _
  rw [Ideal.matmul_constant_zero_apply,
    ← Equiv.sum_comp (contrEquiv1 dot_S4096x128_S128x128_S4096x128_1_0_0_1_n_n 128 rfl rfl).symm]
  refine Finset.sum_congr rfl fun d _ => ?_
  have hd := contrEquiv1_symm_val dot_S4096x128_S128x128_S4096x128_1_0_0_1_n_n 128 rfl rfl d
  have el : dot_S4096x128_S128x128_S4096x128_1_0_0_1_n_n.lhsIdx (ix2 s e)
      ((contrEquiv1 dot_S4096x128_S128x128_S4096x128_1_0_0_1_n_n 128 rfl rfl).symm d) = ix2 s d :=
    funext fun a => Fin.ext (by
      match a with
      | ⟨0, _⟩ =>
        show (dot_S4096x128_S128x128_S4096x128_1_0_0_1_n_n.lhsIdx (ix2 s e) _ 0).val = s.val
        unfold DotDims.lhsIdx
        rw [dif_neg (show ¬(0 : Fin S4096x128.rank) ∈ dot_S4096x128_S128x128_S4096x128_1_0_0_1_n_n.lhsBatch by decide),
          dif_pos (show (0 : Fin S4096x128.rank) ∈ dot_S4096x128_S128x128_S4096x128_1_0_0_1_n_n.lhsNonContracting by decide)]
        rfl
      | ⟨1, _⟩ => exact (dot_S4096x128_S128x128_S4096x128_1_0_0_1_n_n.lhsIdx_val_of_single rfl _ _).trans hd)
  have er : dot_S4096x128_S128x128_S4096x128_1_0_0_1_n_n.rhsIdx (ix2 s e)
      ((contrEquiv1 dot_S4096x128_S128x128_S4096x128_1_0_0_1_n_n 128 rfl rfl).symm d) = ix2 d e :=
    funext fun a => Fin.ext (by
      match a with
      | ⟨0, _⟩ => exact (dot_S4096x128_S128x128_S4096x128_1_0_0_1_n_n.rhsIdx_val_of_single rfl _ _).trans hd
      | ⟨1, _⟩ =>
        show (dot_S4096x128_S128x128_S4096x128_1_0_0_1_n_n.rhsIdx (ix2 s e) _ 1).val = e.val
        unfold DotDims.rhsIdx
        rw [dif_neg (show ¬(1 : Fin S128x128.rank) ∈ dot_S4096x128_S128x128_S4096x128_1_0_0_1_n_n.rhsBatch by decide),
          dif_pos (show (1 : Fin S128x128.rank) ∈ dot_S4096x128_S128x128_S4096x128_1_0_0_1_n_n.rhsNonContracting by decide)]
        rfl)
  rw [el, er]

/-- THE STORED VALUE AT AN ENTRY: for loaded key, value and query blocks `kb`, `vb`, `qb` of one head, entry `(0, 0, s, e)` of what the
    body stores is the value there plus the sum over the features `d` of the query `(s, d)` times the head's key–value summary
    `(d, e)`. -/
theorem stored_apply (kb vb qb : FVec Ideal S1x1x4096x128 .f32) (s : Fin 4096) (e : Fin 128) :
    k0_pay1 (F := Ideal) kb vb qb (ix4 o o s e)
      = vb (ix4 o o s e) + ∑ d : Fin 128, qb (ix4 o o s d) * ∑ s' : Fin 4096, kb (ix4 o o s' d) * vb (ix4 o o s' e) := by
  unfold k0_pay1
  refine (unsqueeze_apply _ _ s e).trans ?_
  refine (addf_apply _ _ (ix2 s e)).trans ?_
  refine congrArg₂ (· + ·) (squeeze_apply vb _ s e) ?_
  refine (applied_apply _ _ s e).trans ?_
  refine Finset.sum_congr rfl fun d _ => ?_
  refine congrArg₂ (· * ·) (squeeze_apply qb _ s d) ?_
  refine (summary_apply _ _ d e).trans ?_
  refine Finset.sum_congr rfl fun s' _ => ?_
  exact congrArg₂ (· * ·) (squeeze_apply kb _ s' d) (squeeze_apply vb _ s' e)

end Cert.LinearAttention.Body

end
-- ==== Proof.HeadBlocks.lean ====
/-
  From grid points to the whole result array.

  The grid has one point per head: 2 × 16 = 32 points, point `t` standing for the head `(b, h)`. At point `t` every window —
  queries, keys, values and the result — sits at block index `(b, h, 0, 0)` with block shape [1, 1, 4096, 128], so entry
  `(0, 0, s, e)` of a block is entry `(b, h, s, e)` of its array. Hence what point `t` writes back is block `t` of
  `attend q k v`; the 32 blocks tile the array (every index lies in the block of its own head); and after the run the
  result array IS `attend q k v`, the arguments unchanged.
-/
import proofs.«113192_j48155173323323_2_alg».proof.Proof.Gen.KernelIdeal.Value
import proofs.«113192_j48155173323323_2_alg».proof.Proof.Spec
import proofs.«113192_j48155173323323_2_alg».proof.Proof.BodySide

noncomputable section

open scoped BigOperators

namespace Cert.LinearAttention.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.LinearAttention Cert.LinearAttention.Body

variable (m : (ℓ : Loc nD τ sig) → Buf (Elt Ideal) ℓ) (ρ : Dev nD → PrngReg)

/-- The body loads and stores whole blocks: every rectangle starts at the origin. -/
theorem origin : (![0, 0, 0, 0] : Fin 4 → Nat) = fun _ => 0 := funext fun a => by fin_cases a <;> rfl

/-- The four index maps, decided over the 32 grid points: the result's block index is `(b, h, 0, 0)` with `b < 2` and
    `h < 16`, and the queries', keys' and values' block indices are the same. -/
theorem head_facts : ∀ t : Fin cfg0.N,
    win0_3.index t (0 : Fin 4) < 2 ∧ win0_3.index t (1 : Fin 4) < 16
    ∧ win0_3.index t (2 : Fin 4) = 0 ∧ win0_3.index t (3 : Fin 4) = 0
    ∧ win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0 :=
  (by decide +kernel : ∀ t : Fin grid0.N, _)

/-- Every head is some grid point's. -/
theorem head_onto : ∀ (b : Fin 2) (h : Fin 16), ∃ t : Fin cfg0.N, win0_3.index t = ![b.val, h.val, 0, 0] :=
  (by decide +kernel : ∀ (b : Fin 2) (h : Fin 16), ∃ t : Fin grid0.N, win0_3.index t = ![b.val, h.val, 0, 0])

/-- The batch coordinate of grid point `t`'s head. -/
def batchOf (t : Fin cfg0.N) : Fin 2 := ⟨win0_3.index t (0 : Fin 4), (head_facts t).1⟩
/-- The head coordinate of grid point `t`'s head. -/
def headOf (t : Fin cfg0.N) : Fin 16 := ⟨win0_3.index t (1 : Fin 4), (head_facts t).2.1⟩

/-- Entry `(0, 0, s, e)` of the result's block at point `t` is entry `(b, h, s, e)` of the result array. -/
theorem result_entry (t : Fin cfg0.N) (s : Fin 4096) (e : Fin 128) :
    (((cfg0.win 3).blk t).view.emb (ix4 o o s e) : S2x16x4096x128.Idx) = ix4 (batchOf t) (headOf t) s e := by
  obtain ⟨-, -, h2, h3, -⟩ := head_facts t
  funext a; apply Fin.ext
  match a with
  | ⟨0, _⟩ => show win0_3.index t (0 : Fin 4) * 1 + 1 * 0 = win0_3.index t (0 : Fin 4); omega
  | ⟨1, _⟩ => show win0_3.index t (1 : Fin 4) * 1 + 1 * 0 = win0_3.index t (1 : Fin 4); omega
  | ⟨2, _⟩ => show win0_3.index t (2 : Fin 4) * 4096 + 1 * s.val = s.val; omega
  | ⟨3, _⟩ => show win0_3.index t (3 : Fin 4) * 128 + 1 * e.val = e.val; omega

/-- Entry `(0, 0, s, d)` of the queries' block at point `t` is the query array's entry `(b, h, s, d)`. -/
theorem queries_at (c : Dev nD) (t : Fin cfg0.N) (s : Fin 4096) (d : Fin 128) :
    (iblk m c 0 t : FVec Ideal S1x1x4096x128 .f32) (ix4 o o s d) = V m c main_arg0 (ix4 (batchOf t) (headOf t) s d) := by
  obtain ⟨-, -, -, -, e0, e1, e2, e3, -⟩ := head_facts t
  unfold iblk
  show V m c main_arg0 (((cfg0.win 0).blk t).view.emb (ix4 o o s d)) = _
  refine congrArg (V m c main_arg0) (funext fun a => Fin.ext ?_)
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 4096 + 1 * s.val = s.val; omega
  | ⟨3, _⟩ => show win0_0.index t (3 : Fin 4) * 128 + 1 * d.val = d.val; omega

/-- Entry `(0, 0, s, d)` of the keys' block at point `t` is the key array's entry `(b, h, s, d)`. -/
theorem keys_at (c : Dev nD) (t : Fin cfg0.N) (s : Fin 4096) (d : Fin 128) :
    (iblk m c 1 t : FVec Ideal S1x1x4096x128 .f32) (ix4 o o s d) = V m c main_arg1 (ix4 (batchOf t) (headOf t) s d) := by
  obtain ⟨-, -, -, -, -, -, -, -, e0, e1, e2, e3, -⟩ := head_facts t
  unfold iblk
  show V m c main_arg1 (((cfg0.win 1).blk t).view.emb (ix4 o o s d)) = _
  refine congrArg (V m c main_arg1) (funext fun a => Fin.ext ?_)
  match a with
  | ⟨0, _⟩ => show win0_1.index t (0 : Fin 4) * 1 + 1 * 0 = win0_3.index t (0 : Fin 4); omega
  | ⟨1, _⟩ => show win0_1.index t (1 : Fin 4) * 1 + 1 * 0 = win0_3.index t (1 : Fin 4); omega
  | ⟨2, _⟩ => show win0_1.index t (2 : Fin 4) * 4096 + 1 * s.val = s.val; omega
  | ⟨3, _⟩ => show win0_1.index t (3 : Fin 4) * 128 + 1 * d.val = d.val; omega

/-- Entry `(0, 0, s, e)` of the values' block at point `t` is the value array's entry `(b, h, s, e)`. -/
theorem values_at (c : Dev nD) (t : Fin cfg0.N) (s : Fin 4096) (e : Fin 128) :
    (iblk m c 2 t : FVec Ideal S1x1x4096x128 .f32) (ix4 o o s e) = V m c main_arg2 (ix4 (batchOf t) (headOf t) s e) := by
  obtain ⟨-, -, -, -, -, -, -, -, -, -, -, -, e0, e1, e2, e3⟩ := head_facts t
  unfold iblk
  show V m c main_arg2 (((cfg0.win 2).blk t).view.emb (ix4 o o s e)) = _
  refine congrArg (V m c main_arg2) (funext fun a => Fin.ext ?_)
  match a with
  | ⟨0, _⟩ => show win0_2.index t (0 : Fin 4) * 1 + 1 * 0 = win0_3.index t (0 : Fin 4); omega
  | ⟨1, _⟩ => show win0_2.index t (1 : Fin 4) * 1 + 1 * 0 = win0_3.index t (1 : Fin 4); omega
  | ⟨2, _⟩ => show win0_2.index t (2 : Fin 4) * 4096 + 1 * s.val = s.val; omega
  | ⟨3, _⟩ => show win0_2.index t (3 : Fin 4) * 128 + 1 * e.val = e.val; omega

/-- WHAT POINT `t` STORES, entry by entry: the body's stored value of the head's three blocks, at an entry of the block, is
    `attend` of the three argument arrays at that entry's place in the result array. -/
theorem stored_entry (c : Dev nD) (t : Fin cfg0.N) (j : S1x1x4096x128.Idx) :
    k0_pay1 (F := Ideal) (iblk m c 1 t) (iblk m c 2 t) (iblk m c 0 t) j
      = attend (V m c main_arg0) (V m c main_arg1) (V m c main_arg2) (((cfg0.win 3).blk t).view.emb j) := by
  obtain ⟨j0, j1, s, e, rfl⟩ : ∃ (j0 j1 : Fin 1) (s : Fin 4096) (e : Fin 128), j = ix4 j0 j1 s e :=
    ⟨j 0, j 1, j 2, j 3, eq_ix4 j⟩
  obtain rfl : j0 = o := Subsingleton.elim _ _
  obtain rfl : j1 = o := Subsingleton.elim _ _
  rw [result_entry t s e, attend_ix4]
  refine (stored_apply (iblk m c 1 t) (iblk m c 2 t) (iblk m c 0 t) s e).trans ?_
  unfold attendAt keyValue
  refine congrArg₂ (· + ·) (values_at m c t s e) (Finset.sum_congr rfl fun d _ => ?_)
  refine congrArg₂ (· * ·) (queries_at m c t s d) (Finset.sum_congr rfl fun s' _ => ?_)
  exact congrArg₂ (· * ·) (keys_at m c t s' d) (values_at m c t s' e)

/-- WHAT POINT `t` WRITES BACK is block `t` of `attend` of the argument arrays as the region finds them. -/
theorem flushed_eq (c : Dev nD) (t : Fin cfg0.N) :
    (dats m 0 c).flushed 3 t
      = ((cfg0.win 3).blk t).view.read (Elt Ideal) (attend (V m c main_arg0) (V m c main_arg1) (V m c main_arg2)) := by
  rw [flushed3]
  unfold out0_3
  rw [View.canon_unit_zero origin]
  simp only [View.ld_unit_zero (S := S1x1x4096x128) origin]
  funext j
  exact stored_entry m c t j

/-- An index of the result array is in point `t`'s block iff each coordinate is in the block's range on its axis. -/
theorem mem_block (t : Fin cfg0.N) (i : S2x16x4096x128.Idx) :
    i ∈ ((cfg0.win 3).blk t).view.set ↔ ∀ a : Fin 4, win0_3.index t a * S1x1x4096x128.size a ≤ (i a).val
      ∧ (i a).val < win0_3.index t a * S1x1x4096x128.size a + S1x1x4096x128.size a := by
  show i ∈ ((View.whole main_v0).slice (win0_3.rect t)).set ↔ _
  rw [View.set_slice_whole, Rect.mem_set_unit]
  exact Iff.rfl

/-- THE BLOCKS TILE THE ARRAY: the index `(b, h, s, e)` lies in the block of the point that stands for the head `(b, h)`. -/
theorem covered (i : S2x16x4096x128.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 4096 := (i 2).isLt
  have hi3 : (i 3).val < 128 := (i 3).isLt
  obtain ⟨t, ht⟩ := head_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 128 ≤ (i 3).val ∧ (i 3).val < win0_3.index t (3 : Fin 4) * 128 + 128; omega

/-- THE RESULT ARRAY after the run is `attend` of the three argument arrays. -/
theorem final (c : Dev nD) :
    (dats m 0 c).arrAt 3 cfg0.N = attend (V m c main_arg0) (V m c main_arg1) (V m c main_arg2) :=
  (dats m 0 c).arrAt_eq_of_cover 3 (attend (V m c main_arg0) (V m c main_arg1) (V m c main_arg2))
    (fun t _ => flushed_eq m c t) covered

/-- THE KERNEL'S RUN, read: every weakly fair execution terminates with the result array at `attend q k v` of the argument
    arrays as launched, and the arguments unchanged. -/
theorem run : θ_run defs (onTc (τ := τ) (main (F := Ideal))) ⟨m, fun _ => 0, ρ⟩ fun r => ∀ c : Dev nD,
      r.2.mem ((c : Thread nD τ).loc main_v0)
        = attend (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.LinearAttention.Kernel

end
-- ==== Proof.lean ====
/-
  The kernel and its reference compute one function: `v + q · (kᵀ · v)`, head by head.

  For arrays `q`, `k`, `v` of shape [2, 16, 4096, 128] (batch, head, position, feature) both programs end with

      out(b, h, s, e) = v(b, h, s, e) + ∑ d, q(b, h, s, d) · ∑ s', k(b, h, s', d) · v(b, h, s', e)

  as an array of extended reals (`attend`, Proof/Spec.lean). The kernel reaches it one head per grid point: the body forms the
  128 × 128 key–value summary of the head's blocks as a product contracted over the positions, applies the head's queries to it,
  and adds the head's values (Proof/BodySide.lean: the stored value at an entry); the 32 heads' blocks tile the result array
  (Proof/HeadBlocks.lean: the array after the run). The reference reaches it as two batched contractions and a sum
  (Proof/RefSide.lean). The two sides form the same sums of the same products — no factor is moved across a sum, nothing is
  cancelled — so the equality holds at the infinities too and the precondition (every input finite) is never opened.

  The frames: the kernel's two printings run, fault-free, with their arguments unchanged (the frame certificates of their
  pipelines); the reference's frame is its run with the result forgotten. The idealization rewrote no operation, so there is
  nothing to preserve.
-/
import proofs.«113192_j48155173323323_2_alg».proof.Defs
import proofs.«113192_j48155173323323_2_alg».proof.Proof.Gen.Kernel
import proofs.«113192_j48155173323323_2_alg».proof.Proof.Gen.Kernel.Frame
import proofs.«113192_j48155173323323_2_alg».proof.Proof.Gen.KernelIdeal
import proofs.«113192_j48155173323323_2_alg».proof.Proof.Gen.KernelIdeal.Frame
import proofs.«113192_j48155173323323_2_alg».proof.Proof.Gen.KernelIdeal.Value
import proofs.«113192_j48155173323323_2_alg».proof.Proof.Gen.ReferenceIdeal
import proofs.«113192_j48155173323323_2_alg».proof.Proof.Gen.ReferenceIdeal.Run
import proofs.«113192_j48155173323323_2_alg».proof.Proof.Gen.ReferenceIdeal.Read
import proofs.«113192_j48155173323323_2_alg».proof.Proof.Gen.Pre_finite_inputs
import proofs.«113192_j48155173323323_2_alg».proof.Proof.RefSide
import proofs.«113192_j48155173323323_2_alg».proof.Proof.HeadBlocks
import Idealize.ShloMosaic.Adequacy
import Idealize.ShloMosaic.Init

noncomputable section

namespace Cert.Proof

open Idealize.ShloMosaic Idealize.SL.Sem Cert.LinearAttention

/-- The kernel as printed runs to the end without a fault and leaves `q`, `k`, `v` as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's three host operations run and leave `q`, `k`, `v` as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on `q`, `k`, `v`, both programs end with the result array at `attend q k v`: the kernel by its
    32 heads' blocks, the reference by its last stage read index by index. -/
theorem algebraic : Cert.algebraic_KernelIdeal_ReferenceIdeal := by
  intro m ρ m' ρ' _ hagree
  refine ⟨_, Cert.LinearAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.LinearAttention.Reference.stage_eq_attend,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
